-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S128x32 : Shape := ⟨2, ![128, 32]⟩
abbrev S128 : Shape := ⟨1, ![128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S128x32 .f32) (main_arg4 : FVec F S128x32 .f32) (main_arg5 : FVec F S128 .f32) (main_arg6 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S128x32 : Shape := ⟨2, ![128, 32]⟩
abbrev S128 : Shape := ⟨1, ![128]⟩
abbrev S_ : Shape := ⟨0, ![]⟩
abbrev S1600000x1 : Shape := ⟨2, ![1600000, 1]⟩
abbrev S1600000x32 : Shape := ⟨2, ![1600000, 32]⟩
abbrev S32x128 : Shape := ⟨2, ![32, 128]⟩
abbrev S1x128 : Shape := ⟨2, ![1, 128]⟩
abbrev S5000x32 : Shape := ⟨2, ![5000, 32]⟩
abbrev S5000x128 : Shape := ⟨2, ![5000, 128]⟩

abbrev nBuf : Space → Nat
  | .hbm => 24
  | .vmem => 6
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S128x32, .f32⟩
  | .hbm, ⟨4, _⟩ => ⟨S128x32, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .f32⟩
  | .hbm, ⟨17, _⟩ => ⟨S100000x32, .f32⟩
  | .hbm, ⟨18, _⟩ => ⟨S1600000x1, .i32⟩
  | .hbm, ⟨19, _⟩ => ⟨S100000x32, .f32⟩
  | .hbm, ⟨20, _⟩ => ⟨S32x128, .f32⟩
  | .hbm, ⟨21, _⟩ => ⟨S128, .f32⟩
  | .hbm, ⟨22, _⟩ => ⟨S1x128, .f32⟩
  | .hbm, ⟨23, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S1x128, .f32⟩
  | .local _ .vmem, ⟨4, _⟩ => ⟨S5000x32, .f32⟩
  | .local _ .vmem, ⟨5, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S128x32_S32x128_1_0 : S128x32.Transposes [1, 0] S32x128
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x32 : S5000x128.Slices ![0, 0] S5000x32
  slices_S5000x128_o0_64_S5000x32 : S5000x128.Slices ![0, 64] S5000x32
  slices_S5000x128_o0_96_S5000x32 : S5000x128.Slices ![0, 96] S5000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_v9) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000 : Shape := ⟨1, ![1600000]⟩
abbrev S128x32 : Shape := ⟨2, ![128, 32]⟩
abbrev S128 : Shape := ⟨1, ![128]⟩
abbrev S_ : Shape := ⟨0, ![]⟩
abbrev S1600000x1 : Shape := ⟨2, ![1600000, 1]⟩
abbrev S1600000x32 : Shape := ⟨2, ![1600000, 32]⟩
abbrev S32x128 : Shape := ⟨2, ![32, 128]⟩
abbrev S100000x128 : Shape := ⟨2, ![100000, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S128x32, .f32⟩
  | .hbm, ⟨4, _⟩ => ⟨S128x32, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .f32⟩
  | .hbm, ⟨17, _⟩ => ⟨S100000x32, .f32⟩
  | .hbm, ⟨18, _⟩ => ⟨S1600000x1, .i32⟩
  | .hbm, ⟨19, _⟩ => ⟨S100000x32, .f32⟩
  | .hbm, ⟨20, _⟩ => ⟨S32x128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x32, .f32⟩
  | .hbm, ⟨29, _⟩ => ⟨S100000x32, .f32⟩
  | .hbm, ⟨30, _⟩ => ⟨S100000x32, .f32⟩
  | .hbm, ⟨31, _⟩ => ⟨S100000x32, .f32⟩
  | .hbm, ⟨32, _⟩ => ⟨S100000x32, .f32⟩
  | .hbm, ⟨33, _⟩ => ⟨S100000x32, .f32⟩
  | .hbm, ⟨34, _⟩ => ⟨S_, .f32⟩
  | .hbm, ⟨35, _⟩ => ⟨S100000x32, .f32⟩
  | .hbm, ⟨36, _⟩ => ⟨S100000x32, .f32⟩
  | .hbm, ⟨37, _⟩ => ⟨S_, .f32⟩
  | .hbm, ⟨38, _⟩ => ⟨S100000x32, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S_, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S100000x32, .f32⟩
  | .hbm, ⟨51, _⟩ => ⟨S100000x32, .f32⟩
  | .hbm, ⟨52, _⟩ => ⟨S_, .f32⟩
  | .hbm, ⟨53, _⟩ => ⟨S100000x32, .f32⟩
  | .hbm, ⟨54, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S128x32_S32x128_1_0 : S128x32.Transposes [1, 0] S32x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x32_0_0 : S100000x128.Slices ![0, 0] S100000x32
  slices_S100000x128_S100000x32_0_32 : S100000x128.Slices ![0, 32] S100000x32
  slices_S100000x128_S100000x32_0_64 : S100000x128.Slices ![0, 64] S100000x32
  slices_S100000x128_S100000x32_0_96 : S100000x128.Slices ![0, 96] S100000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf

class Facts : Prop extends Facts₀ where

variable [Facts]
-- ==== Proof.GatedRow.lean ====
/-
  The gated cell of one node, as a function of the node's aggregated features.

  A node has 32 aggregated features `h`. The four gates' weights stand side by side in an array `Wt` of 32 rows and 128
  columns, and `b` gives each of the 128 columns its bias. The pre-activation of column `c` is
      pre h Wt b c = (∑ k < 32, h k · Wt[k, c]) + b c.
  Columns 0–31 belong to the input gate, 64–95 to the candidate and 96–127 to the output gate; columns 32–63 (the forget
  gate) would multiply the previous cell state, which is zero, and are never read. From a zero state the cell is
      cell = σ(input) · tanh(candidate),      hidden = σ(output) · tanh(cell),      result = max hidden 0,
  with σ the logistic function, everything over the extended reals.

  `cell` is the whole result array: row `r`, column `j` of it is the result for node `r` at hidden unit `j`, the bias of a
  column being the sum of two bias vectors. `pre_of_two_biases` says that adding the two biases one after the other to the
  weighted sum is the same as adding their sum: associativity of addition, which the extended reals have without any
  finiteness condition.
-/
import Idealize.ShloMosaic.PureOps.Ideal
import Idealize.ShloMosaic.Lib.ValueIdx

noncomputable section

namespace Cert.GatedRow

open Idealize.ShloMosaic Idealize.ShloMosaic.ValueIdx

/-- Column `o + j` of the 128 gate columns: hidden unit `j` of the gate whose columns start at `o`. -/
abbrev gcol (o : Nat) (j : Fin 32) (h : o + 32 ≤ 128) : Fin 128 := ⟨o + j.val, by have := j.isLt; omega⟩

/-- The pre-activation of gate column `c` for a node with features `h`. -/
def pre (h : Fin 32 → EReal) (Wt : (⟨2, ![32, 128]⟩ : Shape).Idx → EReal) (b : Fin 128 → EReal) (c : Fin 128) : EReal :=
  (∑ k : Fin 32, h k * Wt (ix2 k c)) + b c

/-- From the three pre-activations that are read (input, candidate, output) to the result, the state before being zero. -/
def act (gi gg go : EReal) : EReal :=
  max (Ideal.logistic go * Ideal.tanh (Ideal.logistic gi * Ideal.tanh gg)) (Ideal.ofBits .f32 0x00000000#32)

/-- The result for one node at hidden unit `j`. -/
def out (h : Fin 32 → EReal) (Wt : (⟨2, ![32, 128]⟩ : Shape).Idx → EReal) (b : Fin 128 → EReal) (j : Fin 32) : EReal :=
  act (pre h Wt b (gcol 0 j (by decide))) (pre h Wt b (gcol 64 j (by decide))) (pre h Wt b (gcol 96 j (by decide)))

/-- The whole result: node `r`'s features are row `r` of `H`, and a column's bias is the sum of the two bias vectors there. -/
def cell (H : (⟨2, ![100000, 32]⟩ : Shape).Idx → EReal) (Wt : (⟨2, ![32, 128]⟩ : Shape).Idx → EReal)
    (b1 b2 : (⟨1, ![128]⟩ : Shape).Idx → EReal) : (⟨2, ![100000, 32]⟩ : Shape).Idx → EReal :=
  fun i => out (fun k => H (ix2 (i 0) k)) Wt (fun c => b1 (ix1 c) + b2 (ix1 c)) (i 1)

/-- The result array at node `R`, hidden unit `q`. -/
theorem cell_apply (H : (⟨2, ![100000, 32]⟩ : Shape).Idx → EReal) (Wt : (⟨2, ![32, 128]⟩ : Shape).Idx → EReal)
    (b1 b2 : (⟨1, ![128]⟩ : Shape).Idx → EReal) (R : Fin 100000) (q : Fin 32) :
    cell H Wt b1 b2 (ix2 R q) = out (fun k => H (ix2 R k)) Wt (fun c => b1 (ix1 c) + b2 (ix1 c)) q := rfl

/-- The two biases added one after the other to the weighted sum, or their sum added once: the same pre-activation. -/
theorem pre_of_two_biases (h : Fin 32 → EReal) (Wt : (⟨2, ![32, 128]⟩ : Shape).Idx → EReal) (b1 b2 : Fin 128 → EReal)
    (c : Fin 128) : (∑ k : Fin 32, h k * Wt (ix2 k c)) + b1 c + b2 c = pre h Wt (fun c => b1 c + b2 c) c :=
  add_assoc _ _ _

/-- The float word of `1.0` is the number one. -/
theorem one_f32 : Ideal.ofBits .f32 0x3F800000#32 = 1 := by
  simp [Ideal.ofBits, Ideal.ieee, -EReal.coe_mul]; norm_num

/-- The logistic function spelt as a quotient, `1 / (1 + e^(-x))` with the ones given as float words. -/
theorem logistic_of_quotient (x : EReal) :
    Ideal.div (Ideal.ofBits .f32 0x3F800000#32) (Ideal.ofBits .f32 0x3F800000#32 + Ideal.exp (-x)) = Ideal.logistic x := by
  rw [one_f32]; rfl

end Cert.GatedRow

end
-- ==== Proof.BlockCell.lean ====
/-
  One block of the kernel's work is the gated cell of the block's nodes.

  At a grid point the kernel body holds 5000 nodes' aggregated features `x0` (5000 × 32), all the weights `x1` (32 × 128) and
  one row of biases `x2` (1 × 128). It rounds the features and the weights to a shorter float format (no change to an
  exact value), multiplies them into a zero accumulator and adds the bias row to every node's row: `blockGates`, the
  block's 5000 × 128 pre-activations. `blockGates_apply` reads it at node `p`, column `c`: the product into a zero
  accumulator is the plain sum over the 32 features, so the entry is `GatedRow.pre` of row `p`.
  The body then takes the input, candidate and output gates' columns and applies the logistic function, the hyperbolic
  tangent and a maximum with zero, entry by entry: `pay_apply` reads the stored value at node `p`, hidden unit `q` and finds
  `GatedRow.out` of row `p` there.
-/
import proofs.«110917_j66099546685627_2_alg».proof.Proof.Gen.KernelIdeal.Skeleton
import proofs.«110917_j66099546685627_2_alg».proof.Proof.GatedRow
import Idealize.ShloMosaic.Lib.Pipeline.Value
import Idealize.ShloMosaic.Lib.ValueIdx
import Idealize.ShloMosaic.PureOps.Ideal.Laws

noncomputable section

namespace Cert.KernelIdeal.BlockCell

open Cert.KernelIdeal Cert.KernelIdeal.Gen Idealize.ShloMosaic Idealize.ShloMosaic.ValueIdx Cert.GatedRow

variable (x0 : FVec Ideal S5000x32 .f32) (x1 : FVec Ideal S32x128 .f32) (x2 : FVec Ideal S1x128 .f32)

/-- The block's pre-activations: the product of the block's features with the weights, into a zero accumulator, plus the
    bias row under every node. -/
def blockGates : FVec Ideal S5000x128 .f32 :=
  addf (matmul dot_S5000x32_S32x128_S5000x128_1_0_0_1_n_n none
      (truncf .bf16 (shapeCast S5000x32 x0 shapeCasts_S5000x32_S5000x32) bitsLt_bf16_f32)
      (truncf .bf16 (shapeCast S32x128 x1 shapeCasts_S32x128_S32x128) bitsLt_bf16_f32)
      (constant S5000x128 .f32 0x00000000#32))
    (broadcastTo S5000x128 (shapeCast S1x128 x2 shapeCasts_S1x128_S1x128) broadcasts_S1x128_S5000x128)

/-- The body's stored value is the gate arithmetic applied to three column ranges of the block's pre-activations. -/
theorem pay_eq : k0_pay1 (F := Ideal) x0 x1 x2
    = maximumf (mulf (logistic (extractStridedSlice S5000x32 ![0, 96] (blockGates x0 x1 x2) slices_S5000x128_o0_96_S5000x32))
        (tanh (mulf (logistic (extractStridedSlice S5000x32 ![0, 0] (blockGates x0 x1 x2) slices_S5000x128_o0_0_S5000x32))
          (tanh (extractStridedSlice S5000x32 ![0, 64] (blockGates x0 x1 x2) slices_S5000x128_o0_64_S5000x32)))))
      (broadcast S5000x32 (Scalar.ofBits .f32 0x00000000#32)) := rfl

/-- The bias row under node `p`, at column `c`. -/
theorem biasRow_apply (p : Fin 5000) (c : Fin 128) :
    broadcastTo S5000x128 (shapeCast S1x128 x2 shapeCasts_S1x128_S1x128) broadcasts_S1x128_S5000x128 (ix2 p c)
      = x2 (ix2 (0 : Fin 1) c) := by
  rw [shapeCast_self]
  exact broadcastTo_apply x2 broadcasts_S1x128_S5000x128 (ix2 p c) (ix2 (0 : Fin 1) c) (fun a => match a with
    | ⟨0, _⟩ => by show 0 = if (1 : Nat) = 1 then 0 else p.val; rw [if_pos rfl]
    | ⟨1, _⟩ => by show c.val = if (128 : Nat) = 1 then 0 else c.val; rw [if_neg (by decide)])

/-- The row coordinate of the product's left operand is the output's row. -/
theorem lhs_row (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide),
    dif_pos (show (0 : Fin S5000x32.rank) ∈ dot_S5000x32_S32x128_S5000x128_1_0_0_1_n_n.lhsNonContracting by decide)]
  rfl

/-- The column coordinate of the product's right operand is the output's column. -/
theorem rhs_col (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide),
    dif_pos (show (1 : Fin S32x128.rank) ∈ dot_S5000x32_S32x128_S5000x128_1_0_0_1_n_n.rhsNonContracting by decide)]
  rfl

/-- The block's product at node `p`, column `c`: the sum over the 32 features of feature times weight. -/
theorem product_apply (p : Fin 5000) (c : Fin 128) :
    matmul dot_S5000x32_S32x128_S5000x128_1_0_0_1_n_n none
      (truncf .bf16 (shapeCast S5000x32 x0 shapeCasts_S5000x32_S5000x32) bitsLt_bf16_f32)
      (truncf .bf16 (shapeCast S32x128 x1 shapeCasts_S32x128_S32x128) bitsLt_bf16_f32)
      (constant S5000x128 .f32 0x00000000#32) (ix2 p c)
      = ∑ k : Fin 32, x0 (ix2 p k) * x1 (ix2 k c) := by
  rw [shapeCast_self, shapeCast_self]
  refine (Ideal.matmul_constant_zero_apply dot_S5000x32_S32x128_S5000x128_1_0_0_1_n_n none _ _ (ix2 p c)).trans ?_
  rw [← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p c)
      ((contrEquiv1 dot_S5000x32_S32x128_S5000x128_1_0_0_1_n_n 32 rfl rfl).symm k) = ix2 p k :=
    funext fun a => Fin.ext (by
      match a with
      | ⟨0, _⟩ => exact lhs_row _ _
      | ⟨1, _⟩ => exact (dot_S5000x32_S32x128_S5000x128_1_0_0_1_n_n.lhsIdx_val_of_single rfl _ _).trans hk)
  have er : dot_S5000x32_S32x128_S5000x128_1_0_0_1_n_n.rhsIdx (ix2 p c)
      ((contrEquiv1 dot_S5000x32_S32x128_S5000x128_1_0_0_1_n_n 32 rfl rfl).symm k) = ix2 k c :=
    funext fun a => Fin.ext (by
      match a with
      | ⟨0, _⟩ => exact (dot_S5000x32_S32x128_S5000x128_1_0_0_1_n_n.rhsIdx_val_of_single rfl _ _).trans hk
      | ⟨1, _⟩ => exact rhs_col _ _)
  rw [el, er]
  rfl

/-- The block's pre-activation at node `p`, gate column `c`. -/
theorem blockGates_apply (p : Fin 5000) (c : Fin 128) :
    blockGates x0 x1 x2 (ix2 p c) = pre (fun k => x0 (ix2 p k)) x1 (fun c => x2 (ix2 (0 : Fin 1) c)) c := by
  unfold blockGates
  rw [addf_apply, product_apply, biasRow_apply]
  rfl

/-- Columns `o` … `o + 31` of the pre-activations, at node `p`, hidden unit `q`. -/
theorem gateSlice_apply (g : FVec Ideal S5000x128 .f32) (o : Nat) (ho : o + 32 ≤ 128) (h : S5000x128.Slices ![0, o] S5000x32)
    (p : Fin 5000) (q : Fin 32) :
    extractStridedSlice S5000x32 ![0, o] g h (ix2 p q) = g (ix2 p (gcol o q ho)) :=
  extractStridedSlice_apply ![0, o] g h (ix2 p q) (ix2 p (gcol o q ho)) (fun a => match a with
    | ⟨0, _⟩ => by show p.val = 0 + p.val; omega
    | ⟨1, _⟩ => rfl)

/-- The stored value at node `p`, hidden unit `q`. -/
theorem pay_apply (p : Fin 5000) (q : Fin 32) :
    k0_pay1 (F := Ideal) x0 x1 x2 (ix2 p q) = out (fun k => x0 (ix2 p k)) x1 (fun c => x2 (ix2 (0 : Fin 1) c)) q := by
  rw [pay_eq]
  show max (Ideal.logistic (extractStridedSlice S5000x32 ![0, 96] (blockGates x0 x1 x2) slices_S5000x128_o0_96_S5000x32 (ix2 p q))
      * Ideal.tanh (Ideal.logistic (extractStridedSlice S5000x32 ![0, 0] (blockGates x0 x1 x2) slices_S5000x128_o0_0_S5000x32 (ix2 p q))
        * Ideal.tanh (extractStridedSlice S5000x32 ![0, 64] (blockGates x0 x1 x2) slices_S5000x128_o0_64_S5000x32 (ix2 p q))))
    (Ideal.ofBits .f32 0x00000000#32) = _
  rw [gateSlice_apply _ 96 (by decide), gateSlice_apply _ 0 (by decide), gateSlice_apply _ 64 (by decide),
    blockGates_apply, blockGates_apply, blockGates_apply]
  rfl

/-- The stored value at node `p` of the block, hidden unit `q`, is the gated cell at node `R`, hidden unit `q`, as soon as
    row `p` of the block's features is row `R` of the aggregated features `H`, the block's weights are `Wt`, and its bias row
    is the sum of the two bias vectors. -/
theorem pay_eq_cell (H : (⟨2, ![100000, 32]⟩ : Shape).Idx → EReal) (Wt : (⟨2, ![32, 128]⟩ : Shape).Idx → EReal)
    (b1 b2 : (⟨1, ![128]⟩ : Shape).Idx → EReal) (R : Fin 100000) (p : Fin 5000) (q : Fin 32)
    (h0 : ∀ k : Fin 32, x0 (ix2 p k) = H (ix2 R k))
    (h1 : ∀ (k : Fin 32) (c : Fin 128), x1 (ix2 k c) = Wt (ix2 k c))
    (h2 : ∀ c : Fin 128, x2 (ix2 (0 : Fin 1) c) = b1 (ix1 c) + b2 (ix1 c)) :
    k0_pay1 (F := Ideal) x0 x1 x2 (ix2 p q) = cell H Wt b1 b2 (ix2 R q) := by
  have hpre : ∀ c : Fin 128, pre (fun k => x0 (ix2 p k)) x1 (fun c => x2 (ix2 (0 : Fin 1) c)) c
      = pre (fun k => H (ix2 R k)) Wt (fun c => b1 (ix1 c) + b2 (ix1 c)) c := fun c => by
    show (∑ k : Fin 32, x0 (ix2 p k) * x1 (ix2 k c)) + x2 (ix2 (0 : Fin 1) c)
      = (∑ k : Fin 32, H (ix2 R k) * Wt (ix2 k c)) + (b1 (ix1 c) + b2 (ix1 c))
    rw [h2 c]
    exact congrArg (· + (b1 (ix1 c) + b2 (ix1 c))) (Finset.sum_congr rfl fun k _ => by rw [h0 k, h1 k c])
  rw [pay_apply, cell_apply]
  unfold out
  rw [hpre, hpre, hpre]

end Cert.KernelIdeal.BlockCell

end
-- ==== Proof.CellArray.lean ====
/-
  The kernel's result array is the gated cell of the aggregated features.

  Before the kernel is launched the host part has written three arrays: the aggregated node features (a gather of the
  source nodes' rows followed by a scatter-add into the destination nodes' rows — `aggregated`, which is never opened: the
  other program computes it by the same operations), the transposed weights, and the sum of the two bias vectors laid
  out as one row (`bias_apply` reads that row at a column).
  The grid has 20 points. At point `t` the kernel reads rows 5000·t … 5000·t + 4999 of the aggregated features, all the
  weights and the bias row, and writes rows 5000·t … 5000·t + 4999 of the result (`block_places`, decided over the 20
  points). So what point `t` writes back is block `t` of the gated cell (`written_back`), every row of the result lies in
  exactly the block of the point `row / 5000` (`covered`), and the whole result array after the run is the gated cell
  (`result_array`, `run`).
-/
import proofs.«110917_j66099546685627_2_alg».proof.Proof.Gen.KernelIdeal.Value
import proofs.«110917_j66099546685627_2_alg».proof.Proof.BlockCell
import Idealize.ShloMosaic.Lib.StableHlo.Run
import Idealize.ShloMosaic.Lib.Pipeline.Value

noncomputable section

namespace Cert.KernelIdeal.CellArray

open Cert.KernelIdeal Cert.KernelIdeal.Gen Idealize.ShloMosaic Idealize.ShloMosaic.TcCoe Idealize.SL.Sem
open Idealize.ShloMosaic.ValueIdx Cert.GatedRow Cert.KernelIdeal.BlockCell
open Idealize.ShloMosaic.Pipeline (Dat)

variable (m : (ℓ : Loc nD τ sig) → Buf (Elt Ideal) ℓ) (ρ : Dev nD → PrngReg)

/-! ## What the region finds in its input arrays -/

/-- The aggregated features: each destination node's row is the sum of the rows of the source nodes of its edges (a
    negative source index counted from the end). The host's own operations, kept as one term. -/
def aggregated (x0 : FVec Ideal S100000x32 .f32) (x1 x2 : IVec S1600000 32) : FVec Ideal S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 x2)
    (Host.gather gather_S100000x32_S1600000x1_S1600000x32_1_0_n_n_0_1_132 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

theorem features_found (c : Dev nD) : (V m c main_v9 : S100000x32.Idx → EReal)
    = aggregated (m ((c : Thread nD τ).loc main_arg0)) (m ((c : Thread nD τ).loc main_arg1)) (m ((c : Thread nD τ).loc main_arg2)) := by
  dsimp only [Gen.V, Gen.hostOps0]; after_results <;> rfl

theorem weights_found (c : Dev nD) : (V m c main_v10 : S32x128.Idx → EReal)
    = transpose S32x128 [1, 0] (m ((c : Thread nD τ).loc main_arg3)) transposes_S128x32_S32x128_1_0 := by
  dsimp only [Gen.V, Gen.hostOps0]; after_results <;> rfl

theorem bias_found (c : Dev nD) : (V m c main_v12 : S1x128.Idx → EReal)
    = shapeCast S1x128 (addf (F := Ideal) (s := S128) (φ := .f32) (m ((c : Thread nD τ).loc main_arg5))
        (m ((c : Thread nD τ).loc main_arg6))) shapeCasts_S128_S1x128 := by
  dsimp only [Gen.V, Gen.hostOps0]; after_results <;> rfl

/-- The bias row at column `c`: the sum of the two bias vectors there. -/
theorem bias_apply (b1 b2 : FVec Ideal S128 .f32) (c : Fin 128) :
    shapeCast S1x128 (addf b1 b2) shapeCasts_S128_S1x128 (ix2 (0 : Fin 1) c) = b1 (ix1 c) + b2 (ix1 c) :=
  shapeCast_apply (addf b1 b2) shapeCasts_S128_S1x128 (ix2 (0 : Fin 1) c) (ix1 c) (by
    rw [Shape.rowMajor_val_one, Shape.rowMajor_val_two]; show c.val = 0 * 128 + c.val; omega)

/-! ## Where each window's block stands at a grid point -/

theorem zero_offsets : (![0, 0] : Fin 2 → Nat) = fun _ => 0 := funext fun a => by fin_cases a <;> rfl

/-- The features' block moves with the result's block along the rows; the weights and the bias row stay where they are;
    the result's block index is a row-block number below 20. -/
theorem block_places : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every one of the 20 row-blocks of the result is some point's. -/
theorem block_reached : ∀ q : Fin 20, ∃ t : Fin cfg0.N, win0_3.index t = ![q.val, 0] :=
  (by decide +kernel : ∀ q : Fin 20, ∃ t : Fin grid0.N, win0_3.index t = ![q.val, 0])

/-! ## What a point reads and writes -/

/-- Row `p` of the features' block at point `t` is row `R` of the aggregated features, `R` being `p` rows into the result's
    row-block: an element of a block sits, on each axis, at the block index times the block's size plus its own
    coordinate. (The array's contents enter only as a variable: the aggregation is never looked into.) -/
theorem features_read (c : Dev nD) (t : Fin cfg0.N) (p : Fin 5000) (k : Fin 32) (R : Fin 100000)
    (hR : R.val = win0_3.index t (0 : Fin 2) * 5000 + p.val) :
    iblk m c 0 t (ix2 p k) = V m c main_v9 (ix2 R k) := by
  obtain ⟨e0, e1, -⟩ := block_places t
  unfold iblk
  generalize V m c = Vc
  rw [View.read_apply]
  refine (cast_eq _ _).trans ?_
  refine congrArg (Vc main_v9) (funext fun a => Fin.ext ?_)
  rw [show (((cfg0.win 0).blk t).view.emb (ix2 p k) a : Nat) = ((win0_0.rect t).emb (ix2 p k) a : Nat) from rfl,
    win0_0.rect_emb_val t (ix2 p k) a]
  match a with
  | ⟨0, _⟩ => show win0_0.index t (0 : Fin 2) * 5000 + p.val = R.val; omega
  | ⟨1, _⟩ => show win0_0.index t (1 : Fin 2) * 32 + k.val = k.val; omega

/-- The weights' block at any point is the whole weight array. -/
theorem weights_read (c : Dev nD) (t : Fin cfg0.N) (k : Fin 32) (cc : Fin 128) :
    iblk m c 1 t (ix2 k cc) = V m c main_v10 (ix2 k cc) := by
  obtain ⟨-, -, e2, e3, -⟩ := block_places t
  unfold iblk
  generalize V m c = Vc
  rw [View.read_apply]
  refine (cast_eq _ _).trans ?_
  refine congrArg (Vc main_v10) (funext fun a => Fin.ext ?_)
  rw [show (((cfg0.win 1).blk t).view.emb (ix2 k cc) a : Nat) = ((win0_1.rect t).emb (ix2 k cc) a : Nat) from rfl,
    win0_1.rect_emb_val t (ix2 k cc) a]
  match a with
  | ⟨0, _⟩ => show win0_1.index t (0 : Fin 2) * 32 + k.val = k.val; omega
  | ⟨1, _⟩ => show win0_1.index t (1 : Fin 2) * 128 + cc.val = cc.val; omega

/-- The bias block at any point is the whole bias row. -/
theorem bias_read (c : Dev nD) (t : Fin cfg0.N) (cc : Fin 128) :
    iblk m c 2 t (ix2 (0 : Fin 1) cc) = V m c main_v12 (ix2 (0 : Fin 1) cc) := by
  obtain ⟨-, -, -, -, e4, e5, -⟩ := block_places t
  unfold iblk
  generalize V m c = Vc
  rw [View.read_apply]
  refine (cast_eq _ _).trans ?_
  refine congrArg (Vc main_v12) (funext fun a => Fin.ext ?_)
  rw [show (((cfg0.win 2).blk t).view.emb (ix2 (0 : Fin 1) cc) a : Nat) = ((win0_2.rect t).emb (ix2 (0 : Fin 1) cc) a : Nat) from rfl,
    win0_2.rect_emb_val t (ix2 (0 : Fin 1) cc) a]
  match a with
  | ⟨0, _⟩ => show win0_2.index t (0 : Fin 2) * 1 + 0 = 0; omega
  | ⟨1, _⟩ => show win0_2.index t (1 : Fin 2) * 128 + cc.val = cc.val; omega

/-- The gated cell of what the region finds: the array the kernel's result is shown to be. -/
abbrev cellFound (c : Dev nD) : S100000x32.Idx → EReal :=
  cell (V m c main_v9) (V m c main_v10) (m ((c : Thread nD τ).loc main_arg5)) (m ((c : Thread nD τ).loc main_arg6))

/-- What point `t` writes back is block `t` of the gated cell. -/
theorem written_back (c : Dev nD) (t : Fin cfg0.N) :
    (dats m 0 c).flushed 3 t = ((cfg0.win 3).blk t).view.read (Elt Ideal) (cellFound m c) := by
  rw [Value.flushed3]
  unfold out0_3
  rw [View.canon_unit_zero zero_offsets]
  simp only [View.ld_unit_zero (S := S5000x32) zero_offsets, View.ld_unit_zero (S := S32x128) zero_offsets,
    View.ld_unit_zero (S := S1x128) zero_offsets]
  funext y
  rw [View.read_apply]
  refine Eq.trans ?_ (cast_eq _ _).symm
  obtain ⟨p, q, rfl⟩ : ∃ (p : Fin 5000) (q : Fin 32), y = ix2 p q := ⟨y 0, y 1, eq_ix2 y⟩
  obtain ⟨-, -, -, -, -, -, e6, e7⟩ := block_places t
  have hR : win0_3.index t (0 : Fin 2) * 5000 + p.val < 100000 := by have := p.isLt; omega
  -- the block's own index of (p, q) is (p, q): the window is not clipped
  have hin : (win0 3).xinj (grid0.coords t) (ix2 p q) = ix2 p q := funext fun a => Fin.ext rfl
  -- and (p, q) of the block at point t sits at row 5000·(row-block of t) + p, column q of the array
  have hemb : ((cfg0.win 3).blk t).view.emb (ix2 p q)
      = ix2 (⟨win0_3.index t (0 : Fin 2) * 5000 + p.val, hR⟩ : Fin 100000) q :=
    funext fun a => Fin.ext (by
      rw [show (((cfg0.win 3).blk t).view.emb (ix2 p q) a : Nat) = ((win0_3.rect t).emb (ix2 p q) a : Nat) from rfl,
        win0_3.rect_emb_val t (ix2 p q) a]
      match a with
      | ⟨0, _⟩ =>
        show win0_3.index t (0 : Fin 2) * 5000 + p.val = win0_3.index t (0 : Fin 2) * 5000 + p.val
        rfl
      | ⟨1, _⟩ => show win0_3.index t (1 : Fin 2) * 32 + q.val = q.val; omega)
  refine Eq.trans (congrArg (k0_pay1 (F := Ideal) (iblk m c 0 t) (iblk m c 1 t) (iblk m c 2 t)) hin) ?_
  refine Eq.trans ?_ (congrArg (cellFound m c) hemb).symm
  refine pay_eq_cell (iblk m c 0 t) (iblk m c 1 t) (iblk m c 2 t) (V m c main_v9) (V m c main_v10)
    (m ((c : Thread nD τ).loc main_arg5)) (m ((c : Thread nD τ).loc main_arg6))
    ⟨win0_3.index t (0 : Fin 2) * 5000 + p.val, hR⟩ p q
    (fun k => features_read m c t p k _ rfl) (fun k cc => weights_read m c t k cc) (fun cc => ?_)
  rw [bias_read, bias_found]
  exact bias_apply _ _ cc

/-! ## The blocks cover the result -/

theorem mem_block (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v13).slice (win0_3.rect t)).set ↔ _
  rw [View.set_slice_whole, Rect.mem_set_unit]
  exact Iff.rfl

/-- Row `r` of the result lies in the block of the point whose row-block number is `r / 5000`. -/
theorem covered (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := block_reached ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 32 ≤ (i 1).val ∧ (i 1).val < win0_3.index t (1 : Fin 2) * 32 + 32
    omega

/-! ## The result array, and the run -/

/-- After the run the result array is the gated cell of what the region found. -/
theorem result_array (c : Dev nD) : (dats m 0 c).arrAt 3 cfg0.N = cellFound m c :=
  (dats m 0 c).arrAt_eq_of_cover 3 _ (fun t _ => written_back m c t) covered

/-- The gated cell of the program's arguments: aggregated features, transposed weights, the two bias vectors. -/
abbrev cellOfArgs (c : Dev nD) : S100000x32.Idx → EReal :=
  cell (aggregated (m ((c : Thread nD τ).loc main_arg0)) (m ((c : Thread nD τ).loc main_arg1)) (m ((c : Thread nD τ).loc main_arg2)))
    (transpose S32x128 [1, 0] (m ((c : Thread nD τ).loc main_arg3)) transposes_S128x32_S32x128_1_0)
    (m ((c : Thread nD τ).loc main_arg5)) (m ((c : Thread nD τ).loc main_arg6))

theorem cellFound_eq (c : Dev nD) : cellFound m c = cellOfArgs m c := by
  unfold cellFound cellOfArgs
  rw [features_found, weights_found]

/-- Every weakly fair execution of the kernel's program ends with the result array at the gated cell of the arguments,
    the arguments unchanged. -/
theorem run : θ_run defs (onTc (τ := τ) (main (F := Ideal))) ⟨m, fun _ => 0, ρ⟩ fun r => ∀ c : Dev nD,
      r.2.mem ((c : Thread nD τ).loc main_v13) = cellOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((result_array m c).trans (cellFound_eq m c)), (h c).2⟩)
    (Value.run_blocks m ρ)

end Cert.KernelIdeal.CellArray

end
-- ==== Proof.HostCell.lean ====
/-
  The host program computes the gated cell.

  The host program first aggregates the node features (the same gather and scatter-add as on the kernel's side, left
  unopened here: `val_main_v9`), transposes the weights (`val_main_v10`), and then computes, for all 100000 nodes at once, the
  128 gate pre-activations as a matrix product plus the first bias plus the second bias. `gates_apply` reads that array at
  row `r`, column `c`: it is `GatedRow.pre` of row `r` of the aggregated features, by associativity of the two additions.
  The rest of the host program slices the input, candidate and output gates' columns out of it, spells the logistic
  function as `1 / (1 + e^(-x))` (`act_of_quotients`: that spelling is the logistic function on every extended real), and
  ends in a maximum with zero: `result_eq_cell` reads the result at (r, j) and finds `GatedRow.cell` there.
-/
import proofs.«110917_j66099546685627_2_alg».proof.Proof.Gen.ReferenceIdeal.Read
import proofs.«110917_j66099546685627_2_alg».proof.Proof.GatedRow

noncomputable section

namespace Cert.ReferenceIdeal.HostCell

open Cert.ReferenceIdeal Cert.ReferenceIdeal.Read Idealize.ShloMosaic Idealize.ShloMosaic.ValueIdx Cert.GatedRow

/-- The host's gate arithmetic on three pre-activations, the logistic function spelt as a quotient with the ones as
    float words, is `GatedRow.act`. -/
theorem act_of_quotients (gi gg go : Ideal .f32) :
    FloatOps.maximumf
        (FloatOps.mulf
          (FloatOps.hostDivf (FloatOps.ofBits .f32 0x3F800000#32)
            (FloatOps.addf (FloatOps.ofBits .f32 0x3F800000#32) (FloatOps.hostUnary .exp (FloatOps.hostNegf go))))
          (FloatOps.hostUnary .tanh
            (FloatOps.mulf
              (FloatOps.hostDivf (FloatOps.ofBits .f32 0x3F800000#32)
                (FloatOps.addf (FloatOps.ofBits .f32 0x3F800000#32) (FloatOps.hostUnary .exp (FloatOps.hostNegf gi))))
              (FloatOps.hostUnary .tanh gg))))
        (FloatOps.ofBits .f32 0x00000000#32)
      = act gi gg go := by
  simp only [Ideal.addf_def, Ideal.mulf_def, Ideal.maximumf_def, Ideal.hostDivf_def, Ideal.hostUnary_exp_def,
    Ideal.hostUnary_tanh_def, Ideal.hostNegf_def, Ideal.negf_def, Ideal.ofBits_def, logistic_of_quotient]
  rfl

variable (x0 : (⟨S100000x32, .f32⟩ : BufTy).Contents (Elt Ideal)) (x1 x2 : (⟨S1600000, .i32⟩ : BufTy).Contents (Elt Ideal))
  (x3 : (⟨S128x32, .f32⟩ : BufTy).Contents (Elt Ideal)) (x5 x6 : (⟨S128, .f32⟩ : BufTy).Contents (Elt Ideal))

/-- The pre-activation array at node `r`, gate column `c`: the weighted sum over the node's 32 aggregated features, plus the
    two biases of the column. -/
theorem gates_apply (r : Fin 100000) (c : Fin 128) :
    val_main_v17 (F := Ideal) x0 x1 x2 x3 x5 x6 (ix2 r c)
      = pre (fun k => val_main_v9 (F := Ideal) x0 x1 x2 (ix2 r k)) (val_main_v10 (F := Ideal) x3)
          (fun c => x5 (ix1 c) + x6 (ix1 c)) c := by
  have el : ∀ k : Fin 32, lidx_main_v11 (ix2 r c) k = ix2 r k := fun k =>
    funext fun a => Fin.ext (by match a with | ⟨0, _⟩ => rfl | ⟨1, _⟩ => rfl)
  have er : ∀ k : Fin 32, ridx_main_v11 (ix2 r c) k = ix2 k c := fun k =>
    funext fun a => Fin.ext (by match a with | ⟨0, _⟩ => rfl | ⟨1, _⟩ => rfl)
  have e5 : idx_main_v12 (idx_main_v13 (ix2 r c)) = ix1 c :=
    funext fun a => Fin.ext (by match a with | ⟨0, _⟩ => rfl)
  have e6 : idx_main_v15 (idx_main_v16 (ix2 r c)) = ix1 c :=
    funext fun a => Fin.ext (by match a with | ⟨0, _⟩ => rfl)
  rw [val_main_v17_apply, val_main_v14_apply, val_main_v11_apply, val_main_v13_apply, val_main_v12_apply,
    val_main_v16_apply, val_main_v15_apply]
  generalize val_main_v9 (F := Ideal) x0 x1 x2 = H
  generalize val_main_v10 (F := Ideal) x3 = Wt
  rw [e5, e6]
  have hs : (∑ k : Fin 32, H (lidx_main_v11 (ix2 r c) k) * Wt (ridx_main_v11 (ix2 r c) k))
      = ∑ k : Fin 32, H (ix2 r k) * Wt (ix2 k c) :=
    Finset.sum_congr rfl fun k _ => by rw [el k, er k]
  rw [hs]
  exact pre_of_two_biases (fun k => H (ix2 r k)) Wt (fun c => x5 (ix1 c)) (fun c => x6 (ix1 c)) c

/-- The host program's result is the gated cell of the aggregated features, the transposed weights and the two biases. -/
theorem result_eq_cell :
    val_main_v38 (F := Ideal) x0 x1 x2 x3 x5 x6
      = cell (val_main_v9 (F := Ideal) x0 x1 x2) (val_main_v10 (F := Ideal) x3) x5 x6 := by
  funext i
  obtain ⟨r, j, rfl⟩ : ∃ (r : Fin 100000) (j : Fin 32), i = ix2 r j := ⟨i 0, i 1, eq_ix2 i⟩
  have e18 : idx_main_v18 (ix2 r j) = ix2 r (gcol 0 j (by decide)) :=
    funext fun a => Fin.ext (by match a with | ⟨0, _⟩ => rfl | ⟨1, _⟩ => show j.val = 0 + j.val; omega)
  have e20 : idx_main_v20 (ix2 r j) = ix2 r (gcol 64 j (by decide)) :=
    funext fun a => Fin.ext (by match a with | ⟨0, _⟩ => rfl | ⟨1, _⟩ => rfl)
  have e21 : idx_main_v21 (ix2 r j) = ix2 r (gcol 96 j (by decide)) :=
    funext fun a => Fin.ext (by match a with | ⟨0, _⟩ => rfl | ⟨1, _⟩ => rfl)
  rw [val_main_v38_apply, val_main_v37_apply, val_main_v36_apply, val_main_v35_apply, val_main_v34_apply,
    val_main_v33_apply, val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v18_apply, val_main_cst_1_apply, val_main_cst_2_apply,
    val_main_cst_3_apply, val_main_cst_4_apply, val_main_call0_v0_apply, val_main_call0_cst_apply, e18, e20, e21,
    gates_apply, gates_apply, gates_apply]
  exact act_of_quotients _ _ _

end Cert.ReferenceIdeal.HostCell

end
-- ==== Proof.lean ====
/-
  A graph-recurrent cell: a Pallas kernel against its plain reference, equal over the extended reals.

  Both programs first aggregate node features over the graph's edges: node `d`'s aggregated row is the sum, over the edges
  that end in `d`, of the feature rows of the edges' source nodes. Both do it on the host by the very same gather and
  scatter-add, so the aggregated array is one and the same term on the two sides and is never opened.
  From the aggregated features `H`, the transposed weights `Wt` and the two bias vectors, both programs then compute, for
  each node `r` and hidden unit `j`,
      result[r, j] = max (σ(g[r, 96 + j]) · tanh (σ(g[r, j]) · tanh g[r, 64 + j])) 0,
      g[r, c] = (∑ k < 32, H[r, k] · Wt[k, c]) + bias[c],
  where σ is the logistic function (Proof/GatedRow.lean). They differ in three ways, none of which changes an exact value:
  * the kernel works on 20 blocks of 5000 nodes, one per grid point, and rounds its matrix product's operands to a
    shorter float format first; the blocks tile the result array (Proof/BlockCell.lean, Proof/CellArray.lean);
  * the kernel adds the sum of the two bias vectors, the reference adds them one after the other: associativity of
    addition, which holds on the extended reals with no finiteness condition;
  * the kernel applies the logistic function as one operation, the reference spells it `1 / (1 + e^(-x))`: on the
    extended reals these are one function, the infinities included (Proof/HostCell.lean).
  So the precondition (finite inputs) is not used by the value claim. Each program's frame — termination without a
  fault, the arguments unchanged — is its generated frame run; nothing was rewritten between the kernel and its
  idealization, so that claim is trivial.
-/
import proofs.«110917_j66099546685627_2_alg».proof.Defs
import proofs.«110917_j66099546685627_2_alg».proof.Proof.Gen.Kernel
import proofs.«110917_j66099546685627_2_alg».proof.Proof.Gen.Kernel.Frame
import proofs.«110917_j66099546685627_2_alg».proof.Proof.Gen.KernelIdeal
import proofs.«110917_j66099546685627_2_alg».proof.Proof.Gen.KernelIdeal.Frame
import proofs.«110917_j66099546685627_2_alg».proof.Proof.Gen.KernelIdeal.Value
import proofs.«110917_j66099546685627_2_alg».proof.Proof.Gen.ReferenceIdeal
import proofs.«110917_j66099546685627_2_alg».proof.Proof.Gen.ReferenceIdeal.Run
import proofs.«110917_j66099546685627_2_alg».proof.Proof.Gen.ReferenceIdeal.Read
import proofs.«110917_j66099546685627_2_alg».proof.Proof.Gen.Pre_finite_inputs
import proofs.«110917_j66099546685627_2_alg».proof.Proof.CellArray
import proofs.«110917_j66099546685627_2_alg».proof.Proof.HostCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference aggregates the node features by the operations the kernel's host part uses: one term. -/
theorem aggregated_same (y0 : FVec Ideal Cert.KernelIdeal.S100000x32 .f32) (y1 y2 : IVec Cert.KernelIdeal.S1600000 32) :
    Cert.ReferenceIdeal.Read.val_main_v9 (F := Ideal) y0 y1 y2 = Cert.KernelIdeal.CellArray.aggregated y0 y1 y2 := rfl

/-- Both programs transpose the weights. -/
theorem weights_same (y3 : FVec Ideal Cert.KernelIdeal.S128x32 .f32) :
    Cert.ReferenceIdeal.Read.val_main_v10 (F := Ideal) y3
      = transpose Cert.KernelIdeal.S32x128 [1, 0] y3 Cert.KernelIdeal.Facts₀.transposes_S128x32_S32x128_1_0 := rfl

/-- From memories that agree on the arguments, both programs end with the gated cell of the arguments in their result. -/
theorem algebraic : Cert.algebraic_KernelIdeal_ReferenceIdeal := by
  intro m ρ m' ρ' _ hagree
  refine ⟨fun c => Cert.KernelIdeal.CellArray.cellOfArgs m c, Cert.KernelIdeal.CellArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.HostCell.result_eq_cell,
    (hagree c).1, (hagree c).2.1, (hagree c).2.2.1, (hagree c).2.2.2.1, (hagree c).2.2.2.2.2.1, (hagree c).2.2.2.2.2.2,
    aggregated_same, weights_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
